-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S128x4096 : Shape := ⟨2, ![128, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  main_v18

def fn {F : FTy → Type} [FloatOps F] (main_arg0 : FVec F S8192x4096 .f32) (main_arg1 : FVec F S128x4096 .f32) (main_arg2 : FVec F S8192x4096 .f32) (main_arg3 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_v13 main_v16
-- ==== Kernel.lean ====
abbrev S8192x4096 : Shape := ⟨2, ![8192, 4096]⟩
abbrev S128x4096 : Shape := ⟨2, ![128, 4096]⟩
abbrev S4096x128 : Shape := ⟨2, ![4096, 128]⟩
abbrev S8192x128 : Shape := ⟨2, ![8192, 128]⟩
abbrev S128x128 : Shape := ⟨2, ![128, 128]⟩
abbrev S128x512 : Shape := ⟨2, ![128, 512]⟩
abbrev S512x128 : Shape := ⟨2, ![512, 128]⟩

abbrev nBuf : Space → Nat
  | .hbm => 9
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S8192x4096, .f32⟩
  | .hbm, ⟨3, _⟩ => ⟨S8192x4096, .f32⟩
  | .hbm, ⟨4, _⟩ => ⟨S128x4096, .bf16⟩
  | .hbm, ⟨5, _⟩ => ⟨S4096x128, .bf16⟩
  | .hbm, ⟨6, _⟩ => ⟨S8192x128, .f32⟩
  | .hbm, ⟨7, _⟩ => ⟨S8192x4096, .f32⟩
  | .hbm, ⟨8, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x128, .bf16⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x128, .f32⟩
  | .local _ .vmem, ⟨8, _⟩ => ⟨S128x128, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v7 : BitVec 32 := Scalar.muli arg9 c512_i32
  v7
def k0_off1 (k0_t1 : Fin k0_t1_loop.trips) : Fin 2 → Nat :=
  let c0_6 : Index := 0#32
  let c0_i32 : BitVec 32 := 0#32
  let c1_i32 : BitVec 32 := 1#32
  let arg9 : BitVec 32 := Scf.iv c0_i32 c1_i32 k0_t1
  let c512_i32 : BitVec 32 := 512#32
  let v7 : BitVec 32 := Scalar.muli arg9 c512_i32
  let v8 : BitVec 32 := v7
  let v9 : Index := Scalar.indexCast v8
  ![0, v9.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v7 : BitVec 32 := Scalar.muli arg9 c512_i32
  let v8 : BitVec 32 := v7
  let v18 : Index := Scalar.indexCast v8
  let c0_9 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  transposes_S128x4096_S4096x128_1_0 : S128x4096.Transposes [1, 0] S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S128x512 : 0 < S128x512.numel
  h_S512x128 : 0 < S512x128.numel
  shapeCasts_S512x128_S512x128 : S512x128.ShapeCasts S512x128
  dot_S128x512_S512x128_S128x128_1_0_0_1_n_n_wf : DotDims.WF S128x512 S512x128 S128x128 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x512.size a ≤ S128x4096.size a
  k0_off2_inb : ∀ k0_t1 : Fin k0_t1_loop.trips, ∀ a, (k0_off2 k0_t1) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S8192x128.size a
  hwx0_4 : ∀ i : grid0.Coords, EltTy.bits .f32 = 32 ∨ (Rect.block (s := S8192x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S8192x4096.size a
  hwx0_6 : ∀ i : grid0.Coords, EltTy.bits .f32 = 32 ∨ (Rect.block (s := S8192x4096) S128x4096.size (cc0_transform_6 i) (hinb0_6 i)).WholeWords (EltTy.packing .f32)

variable [Facts₀]

def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S128x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S128x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S128x4096 : Shape := ⟨2, ![128, 4096]⟩
abbrev S8192x128 : Shape := ⟨2, ![8192, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x128, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x4096_S128x4096_S8192x128_1_1_0_0_n_n_wf : DotDims.WF S8192x4096 S128x4096 S8192x128 [1] [1] [0] [0] [] []

variable [Facts₀]

def dot_S8192x4096_S128x4096_S8192x128_1_1_0_0_n_n : DotDims S8192x4096 S128x4096 S8192x128 where
  lhsContracting := [1]
  rhsContracting := [1]
  lhsNonContracting := [0]
  rhsNonContracting := [0]
  lhsBatch := []
  rhsBatch := []
  wf := dot_S8192x4096_S128x4096_S8192x128_1_1_0_0_n_n_wf

class Facts : Prop extends Facts₀ where

variable [Facts]
-- ==== Proof.LoopIndepB.lean ====
/-
  The counted loop over the eight 512-column chunks, read as pieces.

  One trip stores three things: the chunk's new facilitation values into the second result block, the chunk's new
  depression values into the third, and the running matmul sum — what the accumulator held plus the chunk's product —
  into the whole accumulator. Only the last depends on anything a trip finds in the buffers it writes, and only on the
  accumulator: the two state blocks are written from the argument blocks alone. So the pieces the trips before `k`
  leave do not depend on what the two state blocks held when the loop was entered (`pb_indep`).
-/
import proofs.«108504_j9182640079535_2_alg».proof.Proof.Gen.Kernel.Loops

noncomputable section

namespace Cert.Kernel.GenP

open Cert.Kernel Cert.Kernel.Gen
open Idealize.ShloMosaic Idealize.ShloMosaic.TcCoe Idealize.ShloMosaic.Tactic
open Idealize.SL Idealize.SL.Sem

variable {F : FTy → Type} [FloatOps F]

/-- The columns chunk `k` covers, as a rectangle of a [128, 4096] block. -/
abbrev colRect (k : Fin k0_t1_loop.trips) : Rect S128x4096 := Rect.unit (s := S128x4096) (k0_off1 k) S128x512.size (k0_off1_inb k)
/-- The rows of the transposed weight chunk `k` covers. -/
abbrev rowRect (k : Fin k0_t1_loop.trips) : Rect S4096x128 := Rect.unit (s := S4096x128) (k0_off2 k) S512x128.size (k0_off2_inb k)
/-- The whole accumulator. -/
abbrev accRect : Rect S128x128 := Rect.unit (s := S128x128) ![0, 0] S128x128.size inb_S128x128_S128x128_0_0

/-- What trip `k` stores: the new facilitation chunk, the new depression chunk, and the accumulator plus the chunk's
    product — over the contents `f8` the trip finds in the accumulator. -/
def tripPieces (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) :
    List (View.Piece (Elt F) S128x4096 .f32) × List (View.Piece (Elt F) S128x4096 .f32) × List (View.Piece (Elt F) S128x128 .f32) :=
  ([⟨colRect k, k0_pay3 (View.readAt (Elt F) arg1.view (colRect k).toLoadRect X1) (View.readAt (Elt F) arg3.view (colRect k).toLoadRect X3)⟩],
   [⟨colRect k, k0_pay4 (View.readAt (Elt F) arg1.view (colRect k).toLoadRect X1) (View.readAt (Elt F) arg3.view (colRect k).toLoadRect X3)
      (View.readAt (Elt F) arg4.view (colRect k).toLoadRect X4)⟩],
   [⟨accRect, k0_pay2 (View.readAt (Elt F) arg1.view (colRect k).toLoadRect X1) (View.readAt (Elt F) arg3.view (colRect k).toLoadRect X3)
      (View.readAt (Elt F) arg4.view (colRect k).toLoadRect X4) (View.readAt (Elt F) arg2.view (rowRect k).toLoadRect X2)
      (View.readAt (Elt F) arg8.view accRect.toLoadRect f8)⟩])

/-- The pieces the run of one trip found are those, whatever the two state blocks held. -/
theorem tripL_eq (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    tripL_k0_t1 (F := F) 𝒱 c bd i arg1 harg1 arg2 harg2 arg3 harg3 arg4 harg4 arg5 harg5 arg6 harg6 arg7 harg7 arg8 harg8 X1 X2 X3 X4 k f6 f7 f8 = tripPieces arg1 harg1 arg2 harg2 arg3 harg3 arg4 harg4 arg5 harg5 arg6 harg6 arg7 harg7 arg8 harg8 X1 X2 X3 X4 k f8 := by
  unfold tripL_k0_t1 trip_k0_t1 tripPieces
  dsimp only
  sl_unfold_words
  rfl

theorem trip_fst_eq (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X1 X2 X3 X4 k).1 f6 f7 f8 = (tripPieces arg1 harg1 arg2 harg2 arg3 harg3 arg4 harg4 arg5 harg5 arg6 harg6 arg7 harg7 arg8 harg8 X1 X2 X3 X4 k f8).1 :=
  congrArg Prod.fst (tripL_eq 𝒱 c bd i arg1 harg1 arg2 harg2 arg3 harg3 arg4 harg4 arg5 harg5 arg6 harg6 arg7 harg7 arg8 harg8 X1 X2 X3 X4 k f6 f7 f8)

theorem trip_snd_eq (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X1 X2 X3 X4 k).2.1 f6 f7 f8 = (tripPieces arg1 harg1 arg2 harg2 arg3 harg3 arg4 harg4 arg5 harg5 arg6 harg6 arg7 harg7 arg8 harg8 X1 X2 X3 X4 k f8).2.1 :=
  congrArg (fun p => p.2.1) (tripL_eq 𝒱 c bd i arg1 harg1 arg2 harg2 arg3 harg3 arg4 harg4 arg5 harg5 arg6 harg6 arg7 harg7 arg8 harg8 X1 X2 X3 X4 k f6 f7 f8)

theorem trip_thd_eq (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X1 X2 X3 X4 k).2.2.1 f6 f7 f8 = (tripPieces arg1 harg1 arg2 harg2 arg3 harg3 arg4 harg4 arg5 harg5 arg6 harg6 arg7 harg7 arg8 harg8 X1 X2 X3 X4 k f8).2.2 :=
  congrArg (fun p => p.2.2) (tripL_eq 𝒱 c bd i arg1 harg1 arg2 harg2 arg3 harg3 arg4 harg4 arg5 harg5 arg6 harg6 arg7 harg7 arg8 harg8 X1 X2 X3 X4 k f6 f7 f8)

/-- The pieces of the trips before `k` do not depend on what the two state blocks held at loop entry. -/
theorem pb_indep (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty)
    (G6 G6' : BufTy.Contents (Elt F) arg6.view.ty) (G7 G7' : BufTy.Contents (Elt F) arg7.view.ty) (G8 : BufTy.Contents (Elt F) arg8.view.ty) :
    ∀ k : ℕ, pb_k0_t1 (F := F) 𝒱 c bd i arg1 harg1 arg2 harg2 arg3 harg3 arg4 harg4 arg5 harg5 arg6 harg6 arg7 harg7 arg8 harg8 X1 X2 X3 X4 G6 G7 G8 k
      = pb_k0_t1 (F := F) 𝒱 c bd i arg1 harg1 arg2 harg2 arg3 harg3 arg4 harg4 arg5 harg5 arg6 harg6 arg7 harg7 arg8 harg8 X1 X2 X3 X4 G6' G7' G8 k
  | 0 => rfl
  | k + 1 => by
    rw [pb_k0_t1.eq_2, pb_k0_t1.eq_2]
    unfold pb_k0_t1Step
    rw [pb_indep 𝒱 c bd i arg1 harg1 arg2 harg2 arg3 harg3 arg4 harg4 arg5 harg5 arg6 harg6 arg7 harg7 arg8 harg8 X1 X2 X3 X4 G6 G6' G7 G7' G8 k]
    by_cases h : k < k0_t1_loop.trips
    · rw [dif_pos h, dif_pos h]
      rw [tripL_eq, tripL_eq]
    · rw [dif_neg h, dif_neg h]

end Cert.Kernel.GenP

end
-- ==== Proof.LoopIndepI.lean ====
/-
  The counted loop over the eight 512-column chunks, read as pieces.

  One trip stores three things: the chunk's new facilitation values into the second result block, the chunk's new
  depression values into the third, and the running matmul sum — what the accumulator held plus the chunk's product —
  into the whole accumulator. Only the last depends on anything a trip finds in the buffers it writes, and only on the
  accumulator: the two state blocks are written from the argument blocks alone. So the pieces the trips before `k`
  leave do not depend on what the two state blocks held when the loop was entered (`pb_indep`).
-/
import proofs.«108504_j9182640079535_2_alg».proof.Proof.Gen.KernelIdeal.Loops

noncomputable section

namespace Cert.KernelIdeal.GenP

open Cert.KernelIdeal Cert.KernelIdeal.Gen
open Idealize.ShloMosaic Idealize.ShloMosaic.TcCoe Idealize.ShloMosaic.Tactic
open Idealize.SL Idealize.SL.Sem

variable {F : FTy → Type} [FloatOps F]

/-- The columns chunk `k` covers, as a rectangle of a [128, 4096] block. -/
abbrev colRect (k : Fin k0_t1_loop.trips) : Rect S128x4096 := Rect.unit (s := S128x4096) (k0_off1 k) S128x512.size (k0_off1_inb k)
/-- The rows of the transposed weight chunk `k` covers. -/
abbrev rowRect (k : Fin k0_t1_loop.trips) : Rect S4096x128 := Rect.unit (s := S4096x128) (k0_off2 k) S512x128.size (k0_off2_inb k)
/-- The whole accumulator. -/
abbrev accRect : Rect S128x128 := Rect.unit (s := S128x128) ![0, 0] S128x128.size inb_S128x128_S128x128_0_0

/-- What trip `k` stores: the new facilitation chunk, the new depression chunk, and the accumulator plus the chunk's
    product — over the contents `f8` the trip finds in the accumulator. -/
def tripPieces (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips) (f8 : BufTy.Contents (Elt F) arg8.view.ty) :
    List (View.Piece (Elt F) S128x4096 .f32) × List (View.Piece (Elt F) S128x4096 .f32) × List (View.Piece (Elt F) S128x128 .f32) :=
  ([⟨colRect k, k0_pay3 (View.readAt (Elt F) arg1.view (colRect k).toLoadRect X1) (View.readAt (Elt F) arg3.view (colRect k).toLoadRect X3)⟩],
   [⟨colRect k, k0_pay4 (View.readAt (Elt F) arg1.view (colRect k).toLoadRect X1) (View.readAt (Elt F) arg3.view (colRect k).toLoadRect X3)
      (View.readAt (Elt F) arg4.view (colRect k).toLoadRect X4)⟩],
   [⟨accRect, k0_pay2 (View.readAt (Elt F) arg1.view (colRect k).toLoadRect X1) (View.readAt (Elt F) arg3.view (colRect k).toLoadRect X3)
      (View.readAt (Elt F) arg4.view (colRect k).toLoadRect X4) (View.readAt (Elt F) arg2.view (rowRect k).toLoadRect X2)
      (View.readAt (Elt F) arg8.view accRect.toLoadRect f8)⟩])

/-- The pieces the run of one trip found are those, whatever the two state blocks held. -/
theorem tripL_eq (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    tripL_k0_t1 (F := F) 𝒱 c bd i arg1 harg1 arg2 harg2 arg3 harg3 arg4 harg4 arg5 harg5 arg6 harg6 arg7 harg7 arg8 harg8 X1 X2 X3 X4 k f6 f7 f8 = tripPieces arg1 harg1 arg2 harg2 arg3 harg3 arg4 harg4 arg5 harg5 arg6 harg6 arg7 harg7 arg8 harg8 X1 X2 X3 X4 k f8 := by
  unfold tripL_k0_t1 trip_k0_t1 tripPieces
  dsimp only
  sl_unfold_words
  rfl

theorem trip_fst_eq (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X1 X2 X3 X4 k).1 f6 f7 f8 = (tripPieces arg1 harg1 arg2 harg2 arg3 harg3 arg4 harg4 arg5 harg5 arg6 harg6 arg7 harg7 arg8 harg8 X1 X2 X3 X4 k f8).1 :=
  congrArg Prod.fst (tripL_eq 𝒱 c bd i arg1 harg1 arg2 harg2 arg3 harg3 arg4 harg4 arg5 harg5 arg6 harg6 arg7 harg7 arg8 harg8 X1 X2 X3 X4 k f6 f7 f8)

theorem trip_snd_eq (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X1 X2 X3 X4 k).2.1 f6 f7 f8 = (tripPieces arg1 harg1 arg2 harg2 arg3 harg3 arg4 harg4 arg5 harg5 arg6 harg6 arg7 harg7 arg8 harg8 X1 X2 X3 X4 k f8).2.1 :=
  congrArg (fun p => p.2.1) (tripL_eq 𝒱 c bd i arg1 harg1 arg2 harg2 arg3 harg3 arg4 harg4 arg5 harg5 arg6 harg6 arg7 harg7 arg8 harg8 X1 X2 X3 X4 k f6 f7 f8)

theorem trip_thd_eq (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips)
    (f6 : BufTy.Contents (Elt F) arg6.view.ty) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 X1 X2 X3 X4 k).2.2.1 f6 f7 f8 = (tripPieces arg1 harg1 arg2 harg2 arg3 harg3 arg4 harg4 arg5 harg5 arg6 harg6 arg7 harg7 arg8 harg8 X1 X2 X3 X4 k f8).2.2 :=
  congrArg (fun p => p.2.2) (tripL_eq 𝒱 c bd i arg1 harg1 arg2 harg2 arg3 harg3 arg4 harg4 arg5 harg5 arg6 harg6 arg7 harg7 arg8 harg8 X1 X2 X3 X4 k f6 f7 f8)

/-- The pieces of the trips before `k` do not depend on what the two state blocks held at loop entry. -/
theorem pb_indep (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty)
    (G6 G6' : BufTy.Contents (Elt F) arg6.view.ty) (G7 G7' : BufTy.Contents (Elt F) arg7.view.ty) (G8 : BufTy.Contents (Elt F) arg8.view.ty) :
    ∀ k : ℕ, pb_k0_t1 (F := F) 𝒱 c bd i arg1 harg1 arg2 harg2 arg3 harg3 arg4 harg4 arg5 harg5 arg6 harg6 arg7 harg7 arg8 harg8 X1 X2 X3 X4 G6 G7 G8 k
      = pb_k0_t1 (F := F) 𝒱 c bd i arg1 harg1 arg2 harg2 arg3 harg3 arg4 harg4 arg5 harg5 arg6 harg6 arg7 harg7 arg8 harg8 X1 X2 X3 X4 G6' G7' G8 k
  | 0 => rfl
  | k + 1 => by
    rw [pb_k0_t1.eq_2, pb_k0_t1.eq_2]
    unfold pb_k0_t1Step
    rw [pb_indep 𝒱 c bd i arg1 harg1 arg2 harg2 arg3 harg3 arg4 harg4 arg5 harg5 arg6 harg6 arg7 harg7 arg8 harg8 X1 X2 X3 X4 G6 G6' G7 G7' G8 k]
    by_cases h : k < k0_t1_loop.trips
    · rw [dif_pos h, dif_pos h]
      rw [tripL_eq, tripL_eq]
    · rw [dif_neg h, dif_neg h]

end Cert.KernelIdeal.GenP

end
-- ==== Proof.BodyValue.lean ====
/-
  What the kernel body leaves in its three output blocks, read back as values.

  The body zeroes a [128,128] accumulator, walks the 4096 columns of its row block in eight chunks of 512 — each trip
  writes the chunk's new facilitation state `u·φ + (½·(1 − u·φ))·p` and new depression state
  `x·δ + ((1 − x)·δ)·(1 − p·u')` into the second and third result blocks and adds the chunk's product
  `(p·(u·x))[:, chunk] · wᵀ[chunk, :]` to the accumulator — and stores the accumulator as the first result block.
  So the two state blocks end at ONE pointwise function of the input blocks, whichever trip wrote an entry
  (`pieces5`, `pieces6`: every piece is that function restricted to its columns), and the first result block at the
  chain `((0 + S₀) + S₁) + … + S₇` of the eight chunk products in trip order (`accChain`).
-/
import proofs.«108504_j9182640079535_2_alg».proof.Proof.FrameI
import Idealize.ShloMosaic.Lib.Pipeline.Value

noncomputable section

namespace Cert.KernelIdeal.GenP

open Cert.KernelIdeal Cert.KernelIdeal.Gen
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-! ## The two pointwise state updates -/

/-- The new facilitation state from the spike `p` and the old state `u`: `u·φ + (½·(1 − u·φ))·p`. -/
def facS (p u : F .f32) : F .f32 :=
  FloatOps.addf (FloatOps.mulf u (Scalar.ofBits .f32 0x3F7D73E8#32))
    (FloatOps.mulf (FloatOps.mulf (Scalar.ofBits .f32 0x3F000000#32)
      (FloatOps.subf (Scalar.ofBits .f32 0x3F800000#32) (FloatOps.mulf u (Scalar.ofBits .f32 0x3F7D73E8#32)))) p)

/-- The new depression state from the spike `p`, the old facilitation state `u` and the old depression state `x`:
    `x·δ + ((1 − x)·δ)·(1 − p·u')` with `u'` the NEW facilitation state. -/
def depS (p u x : F .f32) : F .f32 :=
  FloatOps.addf (FloatOps.mulf x (Scalar.ofBits .f32 0x3F7EB923#32))
    (FloatOps.mulf (FloatOps.mulf (FloatOps.subf (Scalar.ofBits .f32 0x3F800000#32) x) (Scalar.ofBits .f32 0x3F7EB923#32))
      (FloatOps.subf (Scalar.ofBits .f32 0x3F800000#32) (FloatOps.mulf p (facS p u))))

theorem pay3_apply (v10 v12 : Vec F S128x512 .f32) (y : S128x512.Idx) : k0_pay3 v10 v12 y = facS (v10 y) (v12 y) := rfl
theorem pay4_apply (v10 v12 v14 : Vec F S128x512 .f32) (y : S128x512.Idx) : k0_pay4 v10 v12 v14 y = depS (v10 y) (v12 y) (v14 y) := rfl

/-! ## The loop's pieces, one trip at a time -/

section Loop

variable (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty)
  (G6 : BufTy.Contents (Elt F) arg6.view.ty) (G7 : BufTy.Contents (Elt F) arg7.view.ty) (G8 : BufTy.Contents (Elt F) arg8.view.ty)

local notation "PB" => pb_k0_t1 (F := F) 𝒱 c bd i arg1 harg1 arg2 harg2 arg3 harg3 arg4 harg4 arg5 harg5 arg6 harg6 arg7 harg7 arg8 harg8 X1 X2 X3 X4 G6 G7 G8

/-- After a trip inside the loop's range the trip's three pieces stand in front of the earlier ones. -/
theorem pb_succ_lt (k : ℕ) (h : k < k0_t1_loop.trips) :
    PB (k + 1) = ((tripPieces arg1 harg1 arg2 harg2 arg3 harg3 arg4 harg4 arg5 harg5 arg6 harg6 arg7 harg7 arg8 harg8 X1 X2 X3 X4 ⟨k, h⟩ (arg8.view.writes (Elt F) G8 (PB k).2.2)).1 ++ (PB k).1,
      (tripPieces arg1 harg1 arg2 harg2 arg3 harg3 arg4 harg4 arg5 harg5 arg6 harg6 arg7 harg7 arg8 harg8 X1 X2 X3 X4 ⟨k, h⟩ (arg8.view.writes (Elt F) G8 (PB k).2.2)).2.1 ++ (PB k).2.1,
      (tripPieces arg1 harg1 arg2 harg2 arg3 harg3 arg4 harg4 arg5 harg5 arg6 harg6 arg7 harg7 arg8 harg8 X1 X2 X3 X4 ⟨k, h⟩ (arg8.view.writes (Elt F) G8 (PB k).2.2)).2.2 ++ (PB k).2.2) := by
  have e := pb_k0_t1_succ (F := F) 𝒱 c bd i arg1 harg1 arg2 harg2 arg3 harg3 arg4 harg4 arg5 harg5 arg6 harg6 arg7 harg7 arg8 harg8 X1 X2 X3 X4 G6 G7 G8 ⟨k, h⟩
  rw [tripL_eq] at e
  exact e

/-- Past the loop's range nothing is added. -/
theorem pb_succ_ge (k : ℕ) (h : ¬k < k0_t1_loop.trips) : PB (k + 1) = PB k := by
  rw [pb_k0_t1.eq_2]; unfold pb_k0_t1Step; exact dif_neg h

end Loop

/-! ## The pieces as values -/

/-- A load through a rectangle of a whole buffer holding `x` reads `x` at the rectangle's indices. -/
theorem readAt_unread {S : Shape} {e : EltTy} (arg : Memref sig .tc .vmem S e) (h : arg.IsWhole) (x : Vec F S e) (r : Rect S) :
    View.readAt (Elt F) arg.view r.toLoadRect (h.unread x) = View.ld x r := by
  rw [View.readAt_eq_ld, h.read_unread]

/-- A store through the whole shape, last, leaves its payload whatever the earlier stores and the prior contents were. -/
theorem read_writes_cons_whole {Val : EltTy → Type} {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

section Pieces

variable (𝒱 : Variants) (c : Dev nD) (bd : Option 𝒱.V) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole)
  (x0 : Vec F S128x4096 .f32) (x1 : Vec F S4096x128 .bf16) (x2 x3 : Vec F S128x4096 .f32)
  (G6 : BufTy.Contents (Elt F) arg6.view.ty) (G7 : BufTy.Contents (Elt F) arg7.view.ty) (G8 : BufTy.Contents (Elt F) arg8.view.ty)

local notation "PB" => pb_k0_t1 (F := F) 𝒱 c bd i arg1 harg1 arg2 harg2 arg3 harg3 arg4 harg4 arg5 harg5 arg6 harg6 arg7 harg7 arg8 harg8 (harg1.unread x0) (harg2.unread x1) (harg3.unread x2) (harg4.unread x3) G6 G7 G8

/-- The new facilitation state of a whole [128, 4096] block, entry by entry. -/
def U5 (x0 x2 : Vec F S128x4096 .f32) : Vec F S128x4096 .f32 := fun y => facS (x0 y) (x2 y)
/-- The new depression state of a whole [128, 4096] block, entry by entry. -/
def U6 (x0 x2 x3 : Vec F S128x4096 .f32) : Vec F S128x4096 .f32 := fun y => depS (x0 y) (x2 y) (x3 y)

/-- Every piece the trips before `k` wrote into the second result block is the new facilitation state on its columns. -/
theorem pieces5 : ∀ k : ℕ, ∀ pc ∈ (PB k).1, ∀ x : pc.1.shape.Idx, pc.2 x = U5 x0 x2 (pc.1.emb x)
  | 0 => fun pc hpc => absurd hpc (by rw [pb_k0_t1.eq_1]; exact List.not_mem_nil)
  | k + 1 => by
    by_cases h : k < k0_t1_loop.trips
    · rw [pb_succ_lt 𝒱 c bd i arg1 harg1 arg2 harg2 arg3 harg3 arg4 harg4 arg5 harg5 arg6 harg6 arg7 harg7 arg8 harg8 _ _ _ _ G6 G7 G8 k h]
      intro pc hpc x
      rcases List.mem_append.mp hpc with h1 | h2
      · obtain rfl := List.mem_singleton.mp h1
        show k0_pay3 _ _ x = _
        rw [pay3_apply, readAt_unread, readAt_unread]
        rfl
      · exact pieces5 k pc h2 x
    · rw [pb_succ_ge 𝒱 c bd i arg1 harg1 arg2 harg2 arg3 harg3 arg4 harg4 arg5 harg5 arg6 harg6 arg7 harg7 arg8 harg8 _ _ _ _ G6 G7 G8 k h]
      exact pieces5 k

/-- Every piece the trips before `k` wrote into the third result block is the new depression state on its columns. -/
theorem pieces6 : ∀ k : ℕ, ∀ pc ∈ (PB k).2.1, ∀ x : pc.1.shape.Idx, pc.2 x = U6 x0 x2 x3 (pc.1.emb x)
  | 0 => fun pc hpc => absurd hpc (by rw [pb_k0_t1.eq_1]; exact List.not_mem_nil)
  | k + 1 => by
    by_cases h : k < k0_t1_loop.trips
    · rw [pb_succ_lt 𝒱 c bd i arg1 harg1 arg2 harg2 arg3 harg3 arg4 harg4 arg5 harg5 arg6 harg6 arg7 harg7 arg8 harg8 _ _ _ _ G6 G7 G8 k h]
      intro pc hpc x
      rcases List.mem_append.mp hpc with h1 | h2
      · obtain rfl := List.mem_singleton.mp h1
        show k0_pay4 _ _ _ x = _
        rw [pay4_apply, readAt_unread, readAt_unread, readAt_unread]
        rfl
      · exact pieces6 k pc h2 x
    · rw [pb_succ_ge 𝒱 c bd i arg1 harg1 arg2 harg2 arg3 harg3 arg4 harg4 arg5 harg5 arg6 harg6 arg7 harg7 arg8 harg8 _ _ _ _ G6 G7 G8 k h]
      exact pieces6 k

/-- The accumulator after `k` trips: zero, then each chunk's product added in trip order. -/
def accChain (x0 : Vec F S128x4096 .f32) (x1 : Vec F S4096x128 .bf16) (x2 x3 : Vec F S128x4096 .f32) : ℕ → FVec F S128x128 .f32
  | 0 => k0_pay1
  | k + 1 => if h : k < k0_t1_loop.trips then
      k0_pay2 (View.ld x0 (colRect ⟨k, h⟩)) (View.ld x2 (colRect ⟨k, h⟩)) (View.ld x3 (colRect ⟨k, h⟩)) (View.ld x1 (rowRect ⟨k, h⟩))
        (accChain x0 x1 x2 x3 k)
    else accChain x0 x1 x2 x3 k

/-- When the accumulator read the zero block at loop entry, after `k` trips it reads the chain. -/
theorem acc_eq (hG : arg8.view.read (Elt F) G8 = k0_pay1) :
    ∀ k : ℕ, arg8.view.read (Elt F) (arg8.view.writes (Elt F) G8 (PB k).2.2) = accChain x0 x1 x2 x3 k
  | 0 => by rw [pb_k0_t1.eq_1]; exact hG
  | k + 1 => by
    by_cases h : k < k0_t1_loop.trips
    · rw [pb_succ_lt 𝒱 c bd i arg1 harg1 arg2 harg2 arg3 harg3 arg4 harg4 arg5 harg5 arg6 harg6 arg7 harg7 arg8 harg8 _ _ _ _ G6 G7 G8 k h]
      show arg8.view.read (Elt F) (arg8.view.writes (Elt F) G8 (⟨accRect, _⟩ :: (PB k).2.2)) = _
      rw [read_writes_cons_whole _ _ hz, accChain, dif_pos h, readAt_unread, readAt_unread, readAt_unread, readAt_unread,
        View.readAt_eq_ld, View.ld_unit_zero hz, acc_eq hG k]
    · rw [pb_succ_ge 𝒱 c bd i arg1 harg1 arg2 harg2 arg3 harg3 arg4 harg4 arg5 harg5 arg6 harg6 arg7 harg7 arg8 harg8 _ _ _ _ G6 G7 G8 k h, accChain, dif_neg h]
      exact acc_eq hG k

end Pieces

/-! ## What the body leaves in each output block -/

section Outs

variable (c : Dev nD) (i : grid0.Coords) (arg1 : Memref sig .tc .vmem S128x4096 .f32) (harg1 : arg1.IsWhole) (arg2 : Memref sig .tc .vmem S4096x128 .bf16) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x128 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x128 .f32) (harg8 : arg8.IsWhole)
  (x0 : Vec F S128x4096 .f32) (x1 : Vec F S4096x128 .bf16) (x2 x3 : Vec F S128x4096 .f32)

/-- The first result block: the accumulator after the loop's trips. -/
theorem out4_eq : out0_A_4 c i arg1 harg1 arg2 harg2 arg3 harg3 arg4 harg4 arg5 harg5 arg6 harg6 arg7 harg7 arg8 harg8 x0 x1 x2 x3
    = accChain x0 x1 x2 x3 (Scf.trips k0_t1_loop.lb k0_t1_loop.ub k0_t1_loop.st) := by
  unfold out0_A_4 kernelRun0_A
  dsimp only
  rw [read_writes_cons_whole _ _ hz, View.readAt_eq_ld, View.ld_unit_zero hz, View.writes_append]
  exact acc_eq Variants.none c none i arg1 harg1 arg2 harg2 arg3 harg3 arg4 harg4 arg5 harg5 arg6 harg6 arg7 harg7 arg8 harg8 x0 x1 x2 x3 _ _ _ (read_writes_cons_whole _ _ hz _ _ _) _

/-- The second result block: the new facilitation state of the whole block. -/
theorem out5_eq : out0_A_5 c i arg1 harg1 arg2 harg2 arg3 harg3 arg4 harg4 arg5 harg5 arg6 harg6 arg7 harg7 arg8 harg8 x0 x1 x2 x3 = U5 x0 x2 := by
  funext y
  unfold out0_A_5
  refine View.read_writes_apply_of_pieces _ _ (U5 x0 x2) _ ?_ y (cover0_A_5 c i arg1 harg1 arg2 harg2 arg3 harg3 arg4 harg4 arg5 harg5 arg6 harg6 arg7 harg7 arg8 harg8 x0 x1 x2 x3 y)
  unfold kernelRun0_A
  dsimp only
  exact pieces5 Variants.none c none i arg1 harg1 arg2 harg2 arg3 harg3 arg4 harg4 arg5 harg5 arg6 harg6 arg7 harg7 arg8 harg8 x0 x1 x2 x3 _ _ _ _

/-- The third result block: the new depression state of the whole block. -/
theorem out6_eq : out0_A_6 c i arg1 harg1 arg2 harg2 arg3 harg3 arg4 harg4 arg5 harg5 arg6 harg6 arg7 harg7 arg8 harg8 x0 x1 x2 x3 = U6 x0 x2 x3 := by
  funext y
  unfold out0_A_6
  refine View.read_writes_apply_of_pieces _ _ (U6 x0 x2 x3) _ ?_ y (cover0_A_6 c i arg1 harg1 arg2 harg2 arg3 harg3 arg4 harg4 arg5 harg5 arg6 harg6 arg7 harg7 arg8 harg8 x0 x1 x2 x3 y)
  unfold kernelRun0_A
  dsimp only
  exact pieces6 Variants.none c none i arg1 harg1 arg2 harg2 arg3 harg3 arg4 harg4 arg5 harg5 arg6 harg6 arg7 harg7 arg8 harg8 x0 x1 x2 x3 _ _ _ _

end Outs

end Cert.KernelIdeal.GenP

end
-- ==== Proof.MatmulChunk.lean ====
/-
  One trip's matmul term at an entry, over the extended reals.

  The trip's accumulator update `acc + (p·(u·x))[:, chunk] · wᵀ[chunk, :]` read at row `r`, column `o` is the
  accumulator's entry plus the sum over the chunk's 512 columns `l` of `(p·(u·x))[r, l] · wᵀ[l, o]`: the rounding to
  bf16 before the product is the identity at the extended reals, the matrix unit starts from the zero block, and the
  contraction's one axis is its coordinate.
-/
import proofs.«108504_j9182640079535_2_alg».proof.Proof.BodyValue
import Idealize.ShloMosaic.Lib.ValueIdx
import Idealize.ShloMosaic.PureOps.Ideal.Laws

noncomputable section

namespace Cert.KernelIdeal.GenP

open Cert.KernelIdeal Cert.KernelIdeal.Gen
open Idealize.ShloMosaic Idealize.ShloMosaic.TcCoe Idealize.ShloMosaic.ValueIdx

theorem lhs_dot_0 (j : S128x128.Idx) (q : dot_S128x512_S512x128_S128x128_1_0_0_1_n_n.contr.Idx) : (dot_S128x512_S512x128_S128x128_1_0_0_1_n_n.lhsIdx j q 0).val = (j 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
theorem lhs_dot_1 (j : S128x128.Idx) (q : dot_S128x512_S512x128_S128x128_1_0_0_1_n_n.contr.Idx) : (dot_S128x512_S512x128_S128x128_1_0_0_1_n_n.lhsIdx j q 1).val = (q ⟨0, by decide⟩).val :=
  dot_S128x512_S512x128_S128x128_1_0_0_1_n_n.lhsIdx_val_of_single rfl j q
theorem rhs_dot_0 (j : S128x128.Idx) (q : dot_S128x512_S512x128_S128x128_1_0_0_1_n_n.contr.Idx) : (dot_S128x512_S512x128_S128x128_1_0_0_1_n_n.rhsIdx j q 0).val = (q ⟨0, by decide⟩).val :=
  dot_S128x512_S512x128_S128x128_1_0_0_1_n_n.rhsIdx_val_of_single rfl j q
theorem rhs_dot_1 (j : S128x128.Idx) (q : dot_S128x512_S512x128_S128x128_1_0_0_1_n_n.contr.Idx) : (dot_S128x512_S512x128_S128x128_1_0_0_1_n_n.rhsIdx j q 1).val = (j 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-- The trip's accumulator update at row `r`, column `o`. -/
theorem pay2_apply (v10 v12 v14 : Vec Ideal S128x512 .f32) (v19 : Vec Ideal S512x128 .bf16) (v22 : Vec Ideal S128x128 .f32)
    (r o : Fin 128) :
    k0_pay2 (F := Ideal) v10 v12 v14 v19 v22 (ix2 r o)
      = v22 (ix2 r o) + ∑ l : Fin 512, (v10 (ix2 r l) * (v12 (ix2 r l) * v14 (ix2 r l))) * v19 (ix2 l o) := by
  unfold k0_pay2
  rw [shapeCast_self, shapeCast_self]
  show v22 (ix2 r o) + FloatOps.matmul (F := Ideal) dot_S128x512_S512x128_S128x128_1_0_0_1_n_n none _ _ (constant (F := Ideal) S128x128 .f32 0x00000000#32) (ix2 r o) = _
  rw [Ideal.matmul_constant_zero_apply, ← Equiv.sum_comp (contrEquiv1 dot_S128x512_S512x128_S128x128_1_0_0_1_n_n 512 rfl rfl).symm]
  refine congrArg (v22 (ix2 r o) + ·) (Finset.sum_congr rfl fun l _ => ?_)
  have hk := contrEquiv1_symm_val dot_S128x512_S512x128_S128x128_1_0_0_1_n_n 512 rfl rfl l
  have el : dot_S128x512_S512x128_S128x128_1_0_0_1_n_n.lhsIdx (ix2 r o) ((contrEquiv1 dot_S128x512_S512x128_S128x128_1_0_0_1_n_n 512 rfl rfl).symm l) = ix2 r l := funext fun a => Fin.ext (by
    match a with
    | ⟨0, _⟩ => exact lhs_dot_0 _ _
    | ⟨1, _⟩ => exact (lhs_dot_1 _ _).trans hk)
  have er : dot_S128x512_S512x128_S128x128_1_0_0_1_n_n.rhsIdx (ix2 r o) ((contrEquiv1 dot_S128x512_S512x128_S128x128_1_0_0_1_n_n 512 rfl rfl).symm l) = ix2 l o := funext fun a => Fin.ext (by
    match a with
    | ⟨0, _⟩ => exact (rhs_dot_0 _ _).trans hk
    | ⟨1, _⟩ => exact rhs_dot_1 _ _)
  rw [el, er]
  rfl

end Cert.KernelIdeal.GenP

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.AccSum.lean ====
/-
  The first result block at an entry: the eight chunk products add up to the whole row product.

  At row `r`, column `o` of the block the accumulator ends at `((0 + S₀) + S₁) + … + S₇`, where `S_q` is the sum over
  the 512 columns `l` of chunk `q` of `(p·(u·x))[r, 512q + l] · wᵀ[512q + l, o]`. A sum over 4096 = 8 · 512 entries
  is the sum over the eight tiles of the sums within each tile, so the chain is the sum over all 4096 columns `n` of
  `(p·(u·x))[r, n] · wᵀ[n, o]` — addition of extended reals is commutative and associative, and nothing more is used.
-/
import proofs.«108504_j9182640079535_2_alg».proof.Proof.MatmulChunk
import proofs.«108504_j9182640079535_2_alg».proof.Proof.LibSumSplit

noncomputable section

namespace Cert.KernelIdeal.GenP

open Cert.KernelIdeal Cert.KernelIdeal.Gen Cert.PointDist
open Idealize.ShloMosaic Idealize.ShloMosaic.TcCoe Idealize.ShloMosaic.ValueIdx

theorem trips_eq : k0_t1_loop.trips = 8 := by decide
theorem trips_eq' : Scf.trips k0_t1_loop.lb k0_t1_loop.ub k0_t1_loop.st = 8 := by decide

theorem tiles : 8 * 512 = 4096 := by decide

variable (x0 : Vec Ideal S128x4096 .f32) (x1 : Vec Ideal S4096x128 .bf16) (x2 x3 : Vec Ideal S128x4096 .f32)

/-- The term column `n` contributes to entry `(r, o)` of the row product. -/
def term (r o : Fin 128) (n : Fin 4096) : EReal :=
  (x0 (ix2 r n) * (x2 (ix2 r n) * x3 (ix2 r n))) * x1 (ix2 n o)

/-- Chunk `q`'s product at entry `(r, o)` (zero past the eighth chunk). -/
def chunkSum (r o : Fin 128) (q : ℕ) : EReal :=
  if h : q < 8 then ∑ l : Fin 512, term x0 x1 x2 x3 r o (tileIdx tiles ⟨q, h⟩ l) else 0

/-- A chunk's columns of a block, read at row `r`, column `l` of the chunk: the block at column `512 q + l`. -/
theorem ld_col (x : Vec Ideal S128x4096 .f32) (q : ℕ) (h : q < k0_t1_loop.trips) (h8 : q < 8) (r : Fin 128) (l : Fin 512) :
    View.ld x (colRect ⟨q, h⟩) (ix2 r l) = x (ix2 r (tileIdx tiles ⟨q, h8⟩ l)) := by
  show x ((colRect ⟨q, h⟩).idx (ix2 r l)) = _
  refine congrArg x (funext fun a => Fin.ext ?_)
  have e := k0_off1_eq ⟨q, h⟩
  match a with
  | ⟨0, _⟩ => show (k0_off1 ⟨q, h⟩) 0 + 1 * r.val = r.val; rw [e]; show 0 + 1 * r.val = r.val; omega
  | ⟨1, _⟩ => show (k0_off1 ⟨q, h⟩) 1 + 1 * l.val = q * 512 + l.val; rw [e]; show 512 * q + 1 * l.val = q * 512 + l.val; omega

/-- A chunk's rows of the transposed weight, read at row `l` of the chunk, column `o`: the weight at row `512 q + l`. -/
theorem ld_row (x : Vec Ideal S4096x128 .bf16) (q : ℕ) (h : q < k0_t1_loop.trips) (h8 : q < 8) (l : Fin 512) (o : Fin 128) :
    View.ld x (rowRect ⟨q, h⟩) (ix2 l o) = x (ix2 (tileIdx tiles ⟨q, h8⟩ l) o) := by
  show x ((rowRect ⟨q, h⟩).idx (ix2 l o)) = _
  refine congrArg x (funext fun a => Fin.ext ?_)
  have e := k0_off2_eq ⟨q, h⟩
  match a with
  | ⟨0, _⟩ => show (k0_off2 ⟨q, h⟩) 0 + 1 * l.val = q * 512 + l.val; rw [e]; show 512 * q + 1 * l.val = q * 512 + l.val; omega
  | ⟨1, _⟩ => show (k0_off2 ⟨q, h⟩) 1 + 1 * o.val = o.val; rw [e]; show 0 + 1 * o.val = o.val; omega

/-- The zero block the accumulator starts from. -/
theorem pay1_apply (j : S128x128.Idx) : k0_pay1 (F := Ideal) j = 0 := by
  unfold k0_pay1
  rw [shapeCast_self]
  exact Ideal.ofBits_zero_f32

/-- After `k` trips the accumulator's entry is the sum of the first `k` chunk products. -/
theorem accChain_apply (r o : Fin 128) : ∀ k : ℕ, k ≤ 8 →
    accChain x0 x1 x2 x3 k (ix2 r o) = ∑ q ∈ Finset.range k, chunkSum x0 x1 x2 x3 r o q
  | 0, _ => by rw [accChain, Finset.sum_range_zero]; exact pay1_apply _
  | k + 1, hk => by
    have h8 : k < 8 := hk
    have h : k < k0_t1_loop.trips := by rw [trips_eq]; exact h8
    rw [accChain, dif_pos h, pay2_apply, accChain_apply r o k (by omega), Finset.sum_range_succ]
    refine congrArg (_ + ·) ?_
    rw [chunkSum, dif_pos h8]
    refine Finset.sum_congr rfl fun l _ => ?_
    rw [ld_col x0 k h h8, ld_col x2 k h h8, ld_col x3 k h h8, ld_row x1 k h h8]
    rfl

/-- The first result block's entry: the whole row product. -/
theorem acc_total (r o : Fin 128) :
    accChain x0 x1 x2 x3 (Scf.trips k0_t1_loop.lb k0_t1_loop.ub k0_t1_loop.st) (ix2 r o) = ∑ n : Fin 4096, term x0 x1 x2 x3 r o n := by
  rw [trips_eq', accChain_apply x0 x1 x2 x3 r o 8 (le_refl 8), sum_tiles tiles, ← Fin.sum_univ_eq_sum_range]
  refine Finset.sum_congr rfl fun q _ => ?_
  rw [chunkSum, dif_pos q.isLt]

end Cert.KernelIdeal.GenP

end
-- ==== Proof.KernelValue.lean ====
/-
  From blocks to arrays: the three result arrays of the idealized kernel as functions of the argument arrays.

  Grid point `t` works on rows `128 t … 128 t + 127`: the spike, facilitation and depression blocks are those rows of the
  three [8192, 4096] arguments, the weight window is the whole transposed weight `wᵀ[n, o] = w[o, n]` (rounded to bf16
  by the host before the call, which is the identity at the extended reals), and the three result blocks are written
  back to the same rows. So entry `(128 t + r, ·)` of each result array is what the body left at row `r` of its block:
  the pointwise state updates of the arguments' entries, and for the first result the sum over all 4096 columns `n` of
  `(p·(u·x))[128 t + r, n] · w[o, n]` — the reference's contraction, term by term. The 64 blocks tile each array.
-/
import proofs.«108504_j9182640079535_2_alg».proof.Proof.AccSum
import proofs.«108504_j9182640079535_2_alg».proof.Proof.Gen.ReferenceIdeal.Read
import Idealize.ShloMosaic.Lib.Pipeline.Value
import Idealize.ShloMosaic.Lib.StableHlo.Run

noncomputable section

namespace Cert.KernelIdeal.GenP

open Cert.KernelIdeal Cert.KernelIdeal.Gen Cert.PointDist
open Idealize.ShloMosaic Idealize.ShloMosaic.TcCoe Idealize.ShloMosaic.ValueIdx Idealize.SL.Sem
open Idealize.ShloMosaic.Pipeline (Dat)
open Cert.ReferenceIdeal.Read (val_main_v2 val_main_v10 val_main_v21 val_main_v1 lidx_main_v2 ridx_main_v2 val_main_v2_apply)

variable (m : (ℓ : Loc nD τ sig) → Buf (Elt Ideal) ℓ) (ρ : Dev nD → PrngReg)

/-! ## The reference's three results at an entry -/

theorem ref10_apply (P U : S8192x4096.Idx → EReal) (i : S8192x4096.Idx) :
    val_main_v10 (F := Ideal) P U i = facS (F := Ideal) (P i) (U i) := rfl

theorem ref21_apply (P U X : S8192x4096.Idx → EReal) (i : S8192x4096.Idx) :
    val_main_v21 (F := Ideal) P U X i = depS (F := Ideal) (P i) (U i) (X i) := rfl

theorem ref1_apply (P U X : S8192x4096.Idx → EReal) (i : S8192x4096.Idx) :
    val_main_v1 (F := Ideal) P U X i = P i * (U i * X i) := rfl

/-! ## Where the windows' blocks sit -/

/-- The printed index maps, decided over the 64 grid points: every row-block window is at block row `t`, block column 0;
    the weight window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `r`, column `n` of point `t`'s block of a [8192, 4096] array is the array's entry `(128 t + r, n)`. -/
def rowIdx (t : Fin cfg0.N) (r : Fin 128) (n : Fin 4096) : S8192x4096.Idx :=
  ix2 (⟨128 * t.val + r.val, by have h64 : t.val < 64 := lt_of_lt_of_eq t.isLt N_0; have := r.isLt; omega⟩ : Fin 8192) n

theorem emb0 (t : Fin cfg0.N) (j : S128x4096.Idx) : ((cfg0.win 0).blk t).view.emb j = rowIdx t (j 0) (j 1) := by
  obtain ⟨e0, e1, -⟩ := idx_facts t
  funext a; apply Fin.ext
  match a with
  | ⟨0, _⟩ => show win0_0.index t (0 : Fin 2) * 128 + 1 * (j 0).val = 128 * t.val + (j 0).val; omega
  | ⟨1, _⟩ => show win0_0.index t (1 : Fin 2) * 4096 + 1 * (j 1).val = (j 1).val; omega

theorem emb2 (t : Fin cfg0.N) (j : S128x4096.Idx) : ((cfg0.win 2).blk t).view.emb j = rowIdx t (j 0) (j 1) := by
  obtain ⟨-, -, -, -, e0, e1, -⟩ := idx_facts t
  funext a; apply Fin.ext
  match a with
  | ⟨0, _⟩ => show win0_2.index t (0 : Fin 2) * 128 + 1 * (j 0).val = 128 * t.val + (j 0).val; omega
  | ⟨1, _⟩ => show win0_2.index t (1 : Fin 2) * 4096 + 1 * (j 1).val = (j 1).val; omega

theorem emb3 (t : Fin cfg0.N) (j : S128x4096.Idx) : ((cfg0.win 3).blk t).view.emb j = rowIdx t (j 0) (j 1) := by
  obtain ⟨-, -, -, -, -, -, e0, e1, -⟩ := idx_facts t
  funext a; apply Fin.ext
  match a with
  | ⟨0, _⟩ => show win0_3.index t (0 : Fin 2) * 128 + 1 * (j 0).val = 128 * t.val + (j 0).val; omega
  | ⟨1, _⟩ => show win0_3.index t (1 : Fin 2) * 4096 + 1 * (j 1).val = (j 1).val; omega

theorem emb5 (t : Fin cfg0.N) (j : S128x4096.Idx) : ((cfg0.win 5).blk t).view.emb j = rowIdx t (j 0) (j 1) := by
  obtain ⟨-, -, -, -, -, -, -, -, -, -, e0, e1, -⟩ := idx_facts t
  funext a; apply Fin.ext
  match a with
  | ⟨0, _⟩ => show win0_5.index t (0 : Fin 2) * 128 + 1 * (j 0).val = 128 * t.val + (j 0).val; omega
  | ⟨1, _⟩ => show win0_5.index t (1 : Fin 2) * 4096 + 1 * (j 1).val = (j 1).val; omega

theorem emb6 (t : Fin cfg0.N) (j : S128x4096.Idx) : ((cfg0.win 6).blk t).view.emb j = rowIdx t (j 0) (j 1) := by
  obtain ⟨-, -, -, -, -, -, -, -, -, -, -, -, e0, e1⟩ := idx_facts t
  funext a; apply Fin.ext
  match a with
  | ⟨0, _⟩ => show win0_6.index t (0 : Fin 2) * 128 + 1 * (j 0).val = 128 * t.val + (j 0).val; omega
  | ⟨1, _⟩ => show win0_6.index t (1 : Fin 2) * 4096 + 1 * (j 1).val = (j 1).val; omega

/-- The three row-block inputs at point `t`, read at an entry: the argument arrays at rows `128 t + r`. -/
theorem iblk0_apply (c : Dev nD) (t : Fin cfg0.N) (j : S128x4096.Idx) :
    iblk m c 0 t j = m ((c : Thread nD τ).loc main_arg0) (rowIdx t (j 0) (j 1)) := by
  show V m c main_arg0 (((cfg0.win 0).blk t).view.emb j) = _
  rw [emb0, V_main_arg0]
theorem iblk2_apply (c : Dev nD) (t : Fin cfg0.N) (j : S128x4096.Idx) :
    iblk m c 2 t j = m ((c : Thread nD τ).loc main_arg2) (rowIdx t (j 0) (j 1)) := by
  show V m c main_arg2 (((cfg0.win 2).blk t).view.emb j) = _
  rw [emb2, V_main_arg2]
theorem iblk3_apply (c : Dev nD) (t : Fin cfg0.N) (j : S128x4096.Idx) :
    iblk m c 3 t j = m ((c : Thread nD τ).loc main_arg3) (rowIdx t (j 0) (j 1)) := by
  show V m c main_arg3 (((cfg0.win 3).blk t).view.emb j) = _
  rw [emb3, V_main_arg3]

/-! ## The two state arrays -/

/-- What point `t` writes back to the second result array is block `t` of the reference's second result. -/
theorem flushed5_eq (c : Dev nD) (t : Fin cfg0.N) :
    (dats m 0 c).flushed 5 t = ((cfg0.win 5).blk t).view.read (Elt Ideal)
      (val_main_v10 (F := Ideal) (m ((c : Thread nD τ).loc main_arg0)) (m ((c : Thread nD τ).loc main_arg2))) := by
  show (cfg0.win 5).cut (grid0.coords t) ((dats m 0 c).after 5 t) = _
  rw [after0_5]
  unfold outsAt0
  dsimp only
  rw [out5_eq]
  funext j
  show U5 (iblk m c 0 t) (iblk m c 2 t) j = val_main_v10 (F := Ideal) _ _ (((cfg0.win 5).blk t).view.emb j)
  rw [emb5, ref10_apply]
  show facS (F := Ideal) (iblk m c 0 t j) (iblk m c 2 t j) = _
  rw [iblk0_apply, iblk2_apply]

/-- What point `t` writes back to the third result array is block `t` of the reference's third result. -/
theorem flushed6_eq (c : Dev nD) (t : Fin cfg0.N) :
    (dats m 0 c).flushed 6 t = ((cfg0.win 6).blk t).view.read (Elt Ideal)
      (val_main_v21 (F := Ideal) (m ((c : Thread nD τ).loc main_arg0)) (m ((c : Thread nD τ).loc main_arg2)) (m ((c : Thread nD τ).loc main_arg3))) := by
  show (cfg0.win 6).cut (grid0.coords t) ((dats m 0 c).after 6 t) = _
  rw [after0_6]
  unfold outsAt0
  dsimp only
  rw [out6_eq]
  funext j
  show U6 (iblk m c 0 t) (iblk m c 2 t) (iblk m c 3 t) j = val_main_v21 (F := Ideal) _ _ _ (((cfg0.win 6).blk t).view.emb j)
  rw [emb6, ref21_apply]
  show depS (F := Ideal) (iblk m c 0 t j) (iblk m c 2 t j) (iblk m c 3 t j) = _
  rw [iblk0_apply, iblk2_apply, iblk3_apply]

/-! ## The transposed weight the host hands the kernel -/

/-- The weight window's array as the region finds it: the second argument rounded to bf16 and transposed. -/
theorem V_wT (c : Dev nD) : (V m c main_call0_v1 : S4096x128.Idx → EReal)
    = transpose S4096x128 [1, 0] (truncf (F := Ideal) .bf16 (m ((c : Thread nD τ).loc main_arg1)) bitsLt_bf16_f32) transposes_S128x4096_S4096x128_1_0 := by
  dsimp only [V, hostOps0]
  after_results
  rfl

/-- Its entry `(n, o)` is the weight's entry `(o, n)`: the rounding is the identity at the extended reals. -/
theorem wT_apply (c : Dev nD) (n : Fin 4096) (o : Fin 128) :
    (V m c main_call0_v1 : S4096x128.Idx → EReal) (ix2 n o) = m ((c : Thread nD τ).loc main_arg1) (ix2 o n) := by
  rw [V_wT]
  exact (transpose_apply [1, 0] _ transposes_S128x4096_S4096x128_1_0 (ix2 n o) (ix2 o n)
    (fun b => by match b with | ⟨0, _⟩ => rfl | ⟨1, _⟩ => rfl)).trans rfl

theorem emb1 (t : Fin cfg0.N) (j : S4096x128.Idx) : ((cfg0.win 1).blk t).view.emb j = ix2 (j 0) (j 1) := by
  obtain ⟨-, -, e0, e1, -⟩ := idx_facts t
  funext a; apply Fin.ext
  match a with
  | ⟨0, _⟩ => show win0_1.index t (0 : Fin 2) * 4096 + 1 * (j 0).val = (j 0).val; omega
  | ⟨1, _⟩ => show win0_1.index t (1 : Fin 2) * 128 + 1 * (j 1).val = (j 1).val; omega

/-- The weight window's block at any point, read at an entry. -/
theorem iblk1_apply (c : Dev nD) (t : Fin cfg0.N) (n : Fin 4096) (o : Fin 128) :
    iblk m c 1 t (ix2 n o) = m ((c : Thread nD τ).loc main_arg1) (ix2 o n) := by
  show V m c main_call0_v1 (((cfg0.win 1).blk t).view.emb (ix2 n o)) = _
  rw [emb1]
  exact wT_apply m c n o

/-! ## The first result array -/

/-- Row `r`, column `o` of point `t`'s block of the [8192, 128] result is its entry `(128 t + r, o)`. -/
def rowIdx4 (t : Fin cfg0.N) (r : Fin 128) (o : Fin 128) : S8192x128.Idx :=
  ix2 (⟨128 * t.val + r.val, by have h64 : t.val < 64 := lt_of_lt_of_eq t.isLt N_0; have := r.isLt; omega⟩ : Fin 8192) o

theorem emb4 (t : Fin cfg0.N) (j : S128x128.Idx) : ((cfg0.win 4).blk t).view.emb j = rowIdx4 t (j 0) (j 1) := by
  obtain ⟨-, -, -, -, -, -, -, -, e0, e1, -⟩ := idx_facts t
  funext a; apply Fin.ext
  match a with
  | ⟨0, _⟩ => show win0_4.index t (0 : Fin 2) * 128 + 1 * (j 0).val = 128 * t.val + (j 0).val; omega
  | ⟨1, _⟩ => show win0_4.index t (1 : Fin 2) * 128 + 1 * (j 1).val = (j 1).val; omega

theorem emb4_ix (t : Fin cfg0.N) (r o : Fin 128) : ((cfg0.win 4).blk t).view.emb (ix2 r o) = rowIdx4 t r o := emb4 t (ix2 r o)
theorem iblk0_ix (c : Dev nD) (t : Fin cfg0.N) (r : Fin 128) (n : Fin 4096) :
    iblk m c 0 t (ix2 r n) = m ((c : Thread nD τ).loc main_arg0) (rowIdx t r n) := iblk0_apply m c t (ix2 r n)
theorem iblk2_ix (c : Dev nD) (t : Fin cfg0.N) (r : Fin 128) (n : Fin 4096) :
    iblk m c 2 t (ix2 r n) = m ((c : Thread nD τ).loc main_arg2) (rowIdx t r n) := iblk2_apply m c t (ix2 r n)
theorem iblk3_ix (c : Dev nD) (t : Fin cfg0.N) (r : Fin 128) (n : Fin 4096) :
    iblk m c 3 t (ix2 r n) = m ((c : Thread nD τ).loc main_arg3) (rowIdx t r n) := iblk3_apply m c t (ix2 r n)

/-- What point `t` writes back to the first result array is block `t` of the reference's contraction. -/
theorem flushed4_eq (c : Dev nD) (t : Fin cfg0.N) :
    (dats m 0 c).flushed 4 t = ((cfg0.win 4).blk t).view.read (Elt Ideal)
      (val_main_v2 (F := Ideal) (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  unfold outsAt0
  dsimp only
  rw [out4_eq]
  funext j
  obtain ⟨r, o, rfl⟩ : ∃ (r o : Fin 128), j = ix2 r o := ⟨j 0, j 1, eq_ix2 j⟩
  show accChain (F := Ideal) (iblk m c 0 t) (iblk m c 1 t) (iblk m c 2 t) (iblk m c 3 t) _ (ix2 r o)
    = val_main_v2 (F := Ideal) _ _ _ _ (((cfg0.win 4).blk t).view.emb (ix2 r o))
  rw [acc_total, emb4_ix, val_main_v2_apply]
  refine Finset.sum_congr rfl fun n _ => ?_
  have hl : lidx_main_v2 (rowIdx4 t r o) n = rowIdx t r n := funext fun a => by match a with | ⟨0, _⟩ => rfl | ⟨1, _⟩ => rfl
  have hr : ridx_main_v2 (rowIdx4 t r o) n = ix2 o n := funext fun a => by match a with | ⟨0, _⟩ => rfl | ⟨1, _⟩ => rfl
  unfold term
  rw [iblk0_ix, iblk2_ix, iblk3_ix, iblk1_apply, ref1_apply, hl, hr]

/-! ## The blocks tile the arrays -/

/-- The point that works on row `i₀`: `i₀ / 128`. -/
def ptOf (i0 : Fin 8192) : Fin cfg0.N := ⟨i0.val / 128, by rw [show cfg0.N = 64 from N_0]; have := i0.isLt; omega⟩

theorem mem_blk4 (t : Fin cfg0.N) (i : S8192x128.Idx) :
    i ∈ ((cfg0.win 4).blk t).view.set ↔ ∀ a : Fin 2, win0_4.index t a * S128x128.size a ≤ (i a).val ∧ (i a).val < win0_4.index t a * S128x128.size a + S128x128.size a := by
  show i ∈ ((View.whole main_v0_0).slice (win0_4.rect t)).set ↔ _
  rw [View.set_slice_whole, Rect.mem_set_unit]
  exact Iff.rfl

/-- Every entry of the array lies in the block of the point that works on its row. -/
theorem cover4 (i : S8192x128.Idx) : ∃ t : Fin cfg0.N, (cfg0.win 4).flush t = true ∧ i ∈ ((cfg0.win 4).blk t).view.set := by
  refine ⟨ptOf (i 0), flush0_4 _, ?_⟩
  rw [mem_blk4]
  have f := idx_facts (ptOf (i 0))
  have h0 : (i 0).val < 8192 := (i 0).isLt
  have h1 : (i 1).val < 128 := (i 1).isLt
  have hp : (ptOf (i 0)).val = (i 0).val / 128 := rfl
  intro a
  match a with
  | ⟨0, _⟩ => show win0_4.index (ptOf (i 0)) (0 : Fin 2) * 128 ≤ (i 0).val ∧ (i 0).val < win0_4.index (ptOf (i 0)) (0 : Fin 2) * 128 + 128; omega
  | ⟨1, _⟩ => show win0_4.index (ptOf (i 0)) (1 : Fin 2) * 128 ≤ (i 1).val ∧ (i 1).val < win0_4.index (ptOf (i 0)) (1 : Fin 2) * 128 + 128; omega

theorem mem_blk5 (t : Fin cfg0.N) (i : S8192x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v0_1).slice (win0_5.rect t)).set ↔ _
  rw [View.set_slice_whole, Rect.mem_set_unit]
  exact Iff.rfl

/-- Every entry of the array lies in the block of the point that works on its row. -/
theorem cover5 (i : S8192x4096.Idx) : ∃ t : Fin cfg0.N, (cfg0.win 5).flush t = true ∧ i ∈ ((cfg0.win 5).blk t).view.set := by
  refine ⟨ptOf (i 0), flush0_5 _, ?_⟩
  rw [mem_blk5]
  have f := idx_facts (ptOf (i 0))
  have h0 : (i 0).val < 8192 := (i 0).isLt
  have h1 : (i 1).val < 4096 := (i 1).isLt
  have hp : (ptOf (i 0)).val = (i 0).val / 128 := rfl
  intro a
  match a with
  | ⟨0, _⟩ => show win0_5.index (ptOf (i 0)) (0 : Fin 2) * 128 ≤ (i 0).val ∧ (i 0).val < win0_5.index (ptOf (i 0)) (0 : Fin 2) * 128 + 128; omega
  | ⟨1, _⟩ => show win0_5.index (ptOf (i 0)) (1 : Fin 2) * 4096 ≤ (i 1).val ∧ (i 1).val < win0_5.index (ptOf (i 0)) (1 : Fin 2) * 4096 + 4096; omega

theorem mem_blk6 (t : Fin cfg0.N) (i : S8192x4096.Idx) :
    i ∈ ((cfg0.win 6).blk t).view.set ↔ ∀ a : Fin 2, win0_6.index t a * S128x4096.size a ≤ (i a).val ∧ (i a).val < win0_6.index t a * S128x4096.size a + S128x4096.size a := by
  show i ∈ ((View.whole main_v0_2).slice (win0_6.rect t)).set ↔ _
  rw [View.set_slice_whole, Rect.mem_set_unit]
  exact Iff.rfl

/-- Every entry of the array lies in the block of the point that works on its row. -/
theorem cover6 (i : S8192x4096.Idx) : ∃ t : Fin cfg0.N, (cfg0.win 6).flush t = true ∧ i ∈ ((cfg0.win 6).blk t).view.set := by
  refine ⟨ptOf (i 0), flush0_6 _, ?_⟩
  rw [mem_blk6]
  have f := idx_facts (ptOf (i 0))
  have h0 : (i 0).val < 8192 := (i 0).isLt
  have h1 : (i 1).val < 4096 := (i 1).isLt
  have hp : (ptOf (i 0)).val = (i 0).val / 128 := rfl
  intro a
  match a with
  | ⟨0, _⟩ => show win0_6.index (ptOf (i 0)) (0 : Fin 2) * 128 ≤ (i 0).val ∧ (i 0).val < win0_6.index (ptOf (i 0)) (0 : Fin 2) * 128 + 128; omega
  | ⟨1, _⟩ => show win0_6.index (ptOf (i 0)) (1 : Fin 2) * 4096 ≤ (i 1).val ∧ (i 1).val < win0_6.index (ptOf (i 0)) (1 : Fin 2) * 4096 + 4096; omega

/-! ## The arrays after the run -/

theorem final4 (c : Dev nD) : (dats m 0 c).arrAt 4 cfg0.N
    = val_main_v2 (F := Ideal) (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed4_eq m c t) cover4

theorem final5 (c : Dev nD) : (dats m 0 c).arrAt 5 cfg0.N
    = val_main_v10 (F := Ideal) (m ((c : Thread nD τ).loc main_arg0)) (m ((c : Thread nD τ).loc main_arg2)) :=
  (dats m 0 c).arrAt_eq_of_cover 5 _ (fun t _ => flushed5_eq m c t) cover5

theorem final6 (c : Dev nD) : (dats m 0 c).arrAt 6 cfg0.N
    = val_main_v21 (F := Ideal) (m ((c : Thread nD τ).loc main_arg0)) (m ((c : Thread nD τ).loc main_arg2)) (m ((c : Thread nD τ).loc main_arg3)) :=
  (dats m 0 c).arrAt_eq_of_cover 6 _ (fun t _ => flushed6_eq m c t) cover6

/-- The idealized kernel's run, read: every weakly fair execution ends with the three result arrays at the reference's
    three terms of the argument arrays, and the arguments as they were. -/
theorem run : θ_run defs (onTc (τ := τ) (main (F := Ideal))) ⟨m, fun _ => 0, ρ⟩ fun r => ∀ c : Dev nD,
      r.2.mem ((c : Thread nD τ).loc main_v0_0) = val_main_v2 (F := Ideal) (m ((c : Thread nD τ).loc main_arg0)) (m ((c : Thread nD τ).loc main_arg1))
        (m ((c : Thread nD τ).loc main_arg2)) (m ((c : Thread nD τ).loc main_arg3))
      ∧ r.2.mem ((c : Thread nD τ).loc main_v0_1) = val_main_v10 (F := Ideal) (m ((c : Thread nD τ).loc main_arg0)) (m ((c : Thread nD τ).loc main_arg2))
      ∧ r.2.mem ((c : Thread nD τ).loc main_v0_2) = val_main_v21 (F := Ideal) (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.GenP

end
-- ==== Proof.lean ====
/-
  The certificate of a short-term-plasticity synapse step: a Pallas kernel against its jnp reference.

  Arguments: a spike array `p`, a facilitation state `u` and a depression state `x`, each [8192, 4096], and a weight
  `w` [128, 4096]. Results: the projection `out[b, o] = Σₙ (p·(u·x))[b, n] · w[o, n]`, the new facilitation state
  `u' = u·φ + (½·(1 − u·φ))·p` and the new depression state `x' = x·δ + ((1 − x)·δ)·(1 − p·u')`, with `φ`, `δ` the two
  decay literals — the same binary words in both programs.

  The kernel works on 64 row blocks of 128 rows. In each it walks the 4096 columns in eight chunks of 512: a chunk's
  state updates are stored into the two state blocks, and the chunk's product with the matching 512 rows of the
  transposed weight is added to a [128, 128] accumulator that starts at zero and is stored as the block of `out`
  at the end. Over the extended reals the eight chunk sums added in order are the one sum over all 4096 columns
  (a sum regrouped by tiles; only commutativity and associativity of addition are used, so the finiteness of the
  inputs is never opened), the rounding of the product's operands to bf16 is the identity, and the state updates are
  the reference's operations entry by entry. The modules:

    LoopIndepB / LoopIndepI    the loop's pieces do not depend on what the state blocks held before it
    FrameRunB, FrameB / FrameRunI, FrameI    the two kernels' frame runs (copies of the generated modules over that fact)
    BodyValue     what the body leaves in its three blocks: the two pointwise updates and the accumulator chain
    MatmulChunk   one chunk's matmul term at an entry
    LibSumSplit   a sum over a · b entries as the sum over a tiles of b entries
    AccSum        the accumulator chain at an entry is the whole row product
    KernelValue   from blocks to arrays, and the idealized kernel's run read at the reference's three terms
-/
import proofs.«108504_j9182640079535_2_alg».proof.Defs
import proofs.«108504_j9182640079535_2_alg».proof.Proof.Gen.Kernel
import proofs.«108504_j9182640079535_2_alg».proof.Proof.Gen.KernelIdeal
import proofs.«108504_j9182640079535_2_alg».proof.Proof.Gen.ReferenceIdeal
import proofs.«108504_j9182640079535_2_alg».proof.Proof.Gen.Pre_finite_inputs
import proofs.«108504_j9182640079535_2_alg».proof.Proof.Gen.ReferenceIdeal.Run
import proofs.«108504_j9182640079535_2_alg».proof.Proof.Gen.ReferenceIdeal.Read
import proofs.«108504_j9182640079535_2_alg».proof.Proof.FrameB
import proofs.«108504_j9182640079535_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is a straight line of host operations: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Both idealized programs end with their three results at the same three functions of the arguments: the kernel's
    run is read at the reference's terms (KernelValue), and the reference's run states those terms of ITS arguments,
    which are the kernel's. -/
theorem algebraic : Cert.algebraic_KernelIdeal_ReferenceIdeal := by
  intro m ρ m' ρ' _ hagree
  refine ⟨_, _, _, Cert.KernelIdeal.GenP.run m ρ, ?_⟩
  refine (θ_run Cert.ReferenceIdeal.defs _ _).mono (fun _ h c => ?_) (Cert.ReferenceIdeal.Value.run (F := Ideal) m' ρ')
  obtain ⟨h2, h10, h21, ha⟩ := h c
  obtain ⟨e0, e1, e2, e3⟩ := hagree c
  refine ⟨?_, ?_, ?_, ha⟩
  · rw [h2, Cert.ReferenceIdeal.Read.val_main_v2_eq, e0, e1, e2, e3]
  · rw [h10, Cert.ReferenceIdeal.Read.val_main_v10_eq, e0, e2]
  · rw [h21, Cert.ReferenceIdeal.Read.val_main_v21_eq, e0, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
